-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100000x1 : S_.BroadcastsInDim S100000x1 (![] : Fin 0 → Fin S100000x1.rank)
  reducesTo_S100000x1_S_d0_1 : S100000x1.ReducesTo [0, 1] S_
  bcast_S_S1600000x1 : S_.BroadcastsInDim S1600000x1 (![] : Fin 0 → Fin S1600000x1.rank)
  reducesTo_S1600000x1_S_d0_1 : S1600000x1.ReducesTo [0, 1] S_

variable [Facts]

def fn_part1 {F : FTy → Type} [FloatOps F] (main_arg4 : FVec F S1600000x1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S1600000x1 .f32 := Host.absf main_arg4
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S100000x1 .f32) (main_arg3 : FVec F S100000x1 .f32) (main_arg4 : FVec F S1600000x1 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩
abbrev S1600000x128 : Shape := ⟨2, ![1600000, 128]⟩
abbrev S5000x128 : Shape := ⟨2, ![5000, 128]⟩
abbrev S5000x1 : Shape := ⟨2, ![5000, 1]⟩

abbrev nBuf : Space → Nat
  | .hbm => 27
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x1, .f32⟩
  | .hbm, ⟨3, _⟩ => ⟨S100000x1, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S128x128, .bf16⟩
  | .hbm, ⟨8, _⟩ => ⟨S100000x128, .bf16⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .bf16⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x1, .f32⟩
  | .hbm, ⟨3, _⟩ => ⟨S100000x1, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.Block.lean ====
/-
  One block of projected node features, read at an entry, over the extended reals.

  The body takes a block of 5000 rows of the feature matrix, the whole 128 x 128 weight matrix and the matching 5000
  entries of the source-coefficient column, and stores their product scaled row by row. Over the extended reals a change
  of float format is the identity and a product accumulated into the zero matrix is the plain sum over the contracted
  coordinate, so the stored entry at row p and column e is (sum over f of x(p, f) * w(f, e)) * s(p, 0).
-/
import proofs.«116690_j52828097741226_2_alg».proof.Proof.Gen.KernelIdeal.Skeleton
import proofs.«116690_j52828097741226_2_alg».proof.Proof.LibMatmul
import proofs.«116690_j52828097741226_2_alg».proof.Proof.LibColumns

open scoped BigOperators

noncomputable section

namespace Cert.KernelIdeal.Projection

open Cert.KernelIdeal Cert.KernelIdeal.Gen Idealize.ShloMosaic Idealize.ShloMosaic.ValueIdx

/-- The body's product into the zero matrix, at row p and column e: the sum over the contracted coordinate. The
    product's dimension numbers are the plain ones (left operand contracted on its second axis, right on its first). -/
theorem product_apply (a : FVec Ideal S5000x128 .bf16) (b : FVec Ideal S128x128 .bf16) (p : Fin 5000) (e : Fin 128) :
    matmul dot_S5000x128_S128x128_S5000x128_1_0_0_1_n_n none a b (constant S5000x128 .f32 0x00000000#32) (ix2 p e)
      = ∑ f : Fin 128, a (ix2 p f) * b (ix2 f e) :=
  Cert.Lib.Matmul.matmul_plain_zero_apply (M := 5000) (K := 128) (N := 128) none a b p e

/-- What the body stores, at row p and column e of the block. -/
theorem block_apply (x : FVec Ideal S5000x128 .f32) (w : FVec Ideal S128x128 .bf16) (s : FVec Ideal S5000x1 .f32)
    (p : Fin 5000) (e : Fin 128) :
    k0_pay1 (F := Ideal) x w s (ix2 p e) = (∑ f : Fin 128, x (ix2 p f) * w (ix2 f e)) * s (ix2 p (0 : Fin 1)) := by
  unfold k0_pay1
  refine (truncf_apply (s := S5000x128) (φ := .f32) (ψ := .bf16) _ _ (ix2 p e)).trans ?_
  refine (mulf_apply (s := S5000x128) (φ := .f32) _ _ (ix2 p e)).trans ?_
  refine congrArg₂ (· * ·) ?_ ?_
  · refine (product_apply _ _ p e).trans ?_
    rw [shapeCast_self]
    rfl
  · exact Cert.Lib.Columns.broadcastTo_a1_ab_apply s _ p e

end Cert.KernelIdeal.Projection

end
-- ==== Proof.Spec.lean ====
/-
  The projected node features as one function of the argument arrays, over the extended reals.

  For a feature matrix x of 100000 rows and 128 columns, a 128 x 128 weight matrix w and a column s of 100000 source
  coefficients, the projected features are h(n, e) = (sum over f of x(n, f) * w(f, e)) * s(n, 0): a matrix product scaled row
  by row. Both programs compute this array and then treat it alike, so it is stated once, entry by entry.
-/
import Idealize.ShloMosaic.Lib.ValueIdx
import Idealize.ShloMosaic.PureOps.Ideal

open scoped BigOperators

noncomputable section

namespace Cert.Projection

open Idealize.ShloMosaic Idealize.ShloMosaic.ValueIdx

/-- The projected features: row n of x times w, scaled by the n-th source coefficient. -/
def hsrc (x : (⟨2, ![100000, 128]⟩ : Shape).Idx → EReal) (w : (⟨2, ![128, 128]⟩ : Shape).Idx → EReal)
    (s : (⟨2, ![100000, 1]⟩ : Shape).Idx → EReal) : (⟨2, ![100000, 128]⟩ : Shape).Idx → EReal :=
  fun i => (∑ f : Fin 128, x (ix2 (⟨(i 0).val, idx2_lt0 i⟩ : Fin 100000) f) * w (ix2 f (⟨(i 1).val, idx2_lt1 i⟩ : Fin 128)))
    * s (ix2 (⟨(i 0).val, idx2_lt0 i⟩ : Fin 100000) (0 : Fin 1))

/-- The same at an index given by its coordinates. -/
theorem hsrc_apply (x : (⟨2, ![100000, 128]⟩ : Shape).Idx → EReal) (w : (⟨2, ![128, 128]⟩ : Shape).Idx → EReal)
    (s : (⟨2, ![100000, 1]⟩ : Shape).Idx → EReal) (n : Fin 100000) (e : Fin 128) :
    hsrc x w s (ix2 n e) = (∑ f : Fin 128, x (ix2 n f) * w (ix2 f e)) * s (ix2 n (0 : Fin 1)) := rfl

end Cert.Projection

end
-- ==== Proof.LibTRef.lean ====
/-
  A typed reference's transports, removed. A buffer's contents read at the value's type and the value's contents written at the
  buffer's type are transports along the equation between the two types; going there and back is the identity, and a single
  transport of a value equals any value it is heterogeneously equal to — in particular the value itself, when the two types are
  the same by computation.
-/
import Idealize.ShloMosaic.Lib.StableHlo

namespace Cert.Lib.TRef

open Idealize.ShloMosaic Idealize.ShloMosaic.StableHlo

variable {sig : RefSig} {Val : EltTy → Type} {T : BufTy}

/-- Written at the buffer's type and read back at the value's: the value. -/
theorem ofBuf_toBuf (x : TRef sig T) (v : T.Contents Val) : x.ofBuf (x.toBuf v) = v := by
  obtain ⟨r, h, a, b⟩ := x
  subst h
  rfl

/-- A buffer's contents read at the value's type are any value of that type they are heterogeneously equal to. -/
theorem ofBuf_of_heq (x : TRef sig T) (v : x.ref.ty.Contents Val) (v' : T.Contents Val) (hv : HEq v v') : x.ofBuf v = v' :=
  eq_of_heq ((cast_heq _ v).trans hv)

/-- A value written at the buffer's type is any contents of that type it is heterogeneously equal to. -/
theorem toBuf_of_heq (x : TRef sig T) (v : T.Contents Val) (v' : x.ref.ty.Contents Val) (hv : HEq v v') : x.toBuf v = v' :=
  eq_of_heq ((cast_heq _ v).trans hv)

end Cert.Lib.TRef
-- ==== Proof.Rows.lean ====
/-
  The array the kernel writes is the projected features of the argument arrays.

  The grid has 20 points. Point t reads rows 5000 t to 5000 t + 4999 of the feature matrix and of the source-coefficient
  column, and the whole weight matrix, and writes back rows 5000 t to 5000 t + 4999 of its output array. The entry it stores
  at row p and column e of its block is the projected feature of row 5000 t + p and column e. Row r of the array lies in the
  block of point r / 5000, so the twenty blocks fill the array, and after the kernel it holds the projected features entry
  by entry. The weight matrix the kernel reads is the argument's, changed of float format before the kernel, which over the
  extended reals is the argument's.
-/
import proofs.«116690_j52828097741226_2_alg».proof.Proof.Gen.KernelIdeal.Frame
import proofs.«116690_j52828097741226_2_alg».proof.Proof.Block
import proofs.«116690_j52828097741226_2_alg».proof.Proof.Spec
import proofs.«116690_j52828097741226_2_alg».proof.Proof.LibTRef
import Idealize.ShloMosaic.Lib.Pipeline.Value
import Idealize.ShloMosaic.Lib.StableHlo.Run

open scoped BigOperators

noncomputable section

namespace Cert.KernelIdeal.Projection

open Cert.KernelIdeal Cert.KernelIdeal.Gen Idealize.ShloMosaic Idealize.ShloMosaic.TcCoe Idealize.SL.Sem
open Idealize.ShloMosaic.ValueIdx
open Idealize.ShloMosaic.Pipeline (Dat)
open Cert.Projection (hsrc hsrc_apply)

variable (m : (ℓ : Loc nD τ sig) → Buf (Elt Ideal) ℓ)

theorem offsets_zero : (![0, 0] : Fin 2 → Nat) = fun _ => 0 := funext fun a => by fin_cases a <;> rfl

/-- One stored entry is the projected feature of the array row the block's row comes from: for a block x of feature rows,
    weights w' and a block s of coefficients whose row p holds row n of the arrays. -/
theorem block_entry (x : FVec Ideal S5000x128 .f32) (w' : FVec Ideal S128x128 .bf16) (s : FVec Ideal S5000x1 .f32)
    (X : (⟨2, ![100000, 128]⟩ : Shape).Idx → EReal) (w : (⟨2, ![128, 128]⟩ : Shape).Idx → EReal)
    (S : (⟨2, ![100000, 1]⟩ : Shape).Idx → EReal) (p : Fin 5000) (e : Fin 128) (n : Fin 100000)
    (hx : ∀ f : Fin 128, x (ix2 p f) = X (ix2 n f)) (hw : ∀ f e : Fin 128, w' (ix2 f e) = w (ix2 f e))
    (hs : s (ix2 p (0 : Fin 1)) = S (ix2 n (0 : Fin 1))) :
    k0_pay1 (F := Ideal) x w' s (ix2 p e) = hsrc X w S (ix2 n e) := by
  rw [block_apply, hsrc_apply, hs]
  refine congrArg (· * S (ix2 n (0 : Fin 1))) (Finset.sum_congr rfl fun f _ => ?_)
  rw [hx, hw]

/-- The block indices at point t: the row windows are at block t, the weight window at block 0, every window at
    column block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the projected features of the arrays as the kernel finds them. -/
theorem flushed_eq (c : Dev nD) (t : Fin cfg0.N) :
    (dats m 0 c).flushed 3 t
      = ((cfg0.win 3).blk t).view.read (Elt Ideal) (hsrc (V m c main_arg0) (V m c main_call0_v0) (V m c main_arg2)) := by
  show (cfg0.win 3).cut (grid0.coords t) ((dats m 0 c).after 3 t) = _
  rw [after0_3]
  unfold out0_3
  rw [View.canon_unit_zero offsets_zero]
  simp only [View.ld_unit_zero (S := S5000x128) offsets_zero, View.ld_unit_zero (S := S128x128) offsets_zero,
    View.ld_unit_zero (S := S5000x1) offsets_zero]
  obtain ⟨e00, e01, e10, e11, e20, e21, e30, e31⟩ := idx_facts t
  have ht : t.val < 20 := Nat.lt_of_lt_of_eq t.isLt N_0
  funext j
  obtain ⟨p, e, rfl⟩ : ∃ (p : Fin 5000) (e : Fin 128), j = ix2 p e := ⟨j 0, j 1, eq_ix2 j⟩
  have hp : p.val < 5000 := p.isLt
  show k0_pay1 (F := Ideal) (iblk m c 0 t) (iblk m c 1 t) (iblk m c 2 t) (ix2 p e)
    = hsrc (V m c main_arg0) (V m c main_call0_v0) (V m c main_arg2) (((cfg0.win 3).blk t).view.emb (ix2 p e))
  have hemb : ((cfg0.win 3).blk t).view.emb (ix2 p e) = ix2 (⟨t.val * 5000 + p.val, by omega⟩ : Fin 100000) e :=
    funext fun a => Fin.ext (by
      match a with
      | ⟨0, _⟩ => show win0_3.index t (0 : Fin 2) * 5000 + 1 * p.val = t.val * 5000 + p.val; omega
      | ⟨1, _⟩ => show win0_3.index t (1 : Fin 2) * 128 + 1 * e.val = e.val; omega)
  rw [hemb]
  refine block_entry (iblk m c 0 t) (iblk m c 1 t) (iblk m c 2 t) (V m c main_arg0) (V m c main_call0_v0) (V m c main_arg2)
    p e ⟨t.val * 5000 + p.val, by omega⟩ ?_ ?_ ?_
  · intro f
    show (V m c main_arg0 : S100000x128.Idx → EReal) (((cfg0.win 0).blk t).view.emb (ix2 p f)) = _
    refine congrArg (V m c main_arg0 : S100000x128.Idx → EReal) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * f.val = f.val; omega
  · intro f e'
    show (V m c main_call0_v0 : S128x128.Idx → EReal) (((cfg0.win 1).blk t).view.emb (ix2 f e')) = _
    refine congrArg (V m c main_call0_v0 : S128x128.Idx → EReal) (funext fun a => Fin.ext ?_)
    match a with
    | ⟨0, _⟩ => show win0_1.index t (0 : Fin 2) * 128 + 1 * f.val = f.val; omega
    | ⟨1, _⟩ => show win0_1.index t (1 : Fin 2) * 128 + 1 * e'.val = e'.val; omega
  · show (V m c main_arg2 : S100000x1.Idx → EReal) (((cfg0.win 2).blk t).view.emb (ix2 p (0 : Fin 1))) = _
    refine congrArg (V m c main_arg2 : S100000x1.Idx → EReal) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_call0_v1).slice (win0_3.rect t)).set ↔ _
  rw [View.set_slice_whole, Rect.mem_set_unit]
  exact Iff.rfl

/-- Row r of the array is in the block of point r / 5000: the blocks fill the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The weights as the kernel finds them are the argument's: the one operation before the kernel changes their float
    format. -/
theorem weights_eq (c : Dev nD) :
    (V m c main_call0_v0 : S128x128.Idx → EReal) = m ((c : Thread nD τ).loc main_arg1) := by
  show StableHlo.after hostOps0 (fun b => m (c, b)) (Proc.devRef .tc main_call0_v0) = _
  after_results
  rfl

/-- The output array after the kernel: the projected features of the argument arrays. -/
theorem final (c : Dev nD) :
    ((dats m 0 c).arrAt 3 cfg0.N : S100000x128.Idx → EReal)
      = hsrc (m ((c : Thread nD τ).loc main_arg0)) (m ((c : Thread nD τ).loc main_arg1)) (m ((c : Thread nD τ).loc main_arg2)) := by
  rw [← V_main_arg0 m c, ← V_main_arg2 m c, ← weights_eq m c]
  exact (dats m 0 c).arrAt_eq_of_cover 3 _ (fun t _ => flushed_eq m c t) cover

end Cert.KernelIdeal.Projection

end
-- ==== Proof.Aggregate.lean ====
/-
  The message passing both programs apply to the projected features, as one function.

  From the projected features h, the source and destination node of each edge, the edge weights and the destination
  coefficients: a negative source index is taken from the end (100000 is added to it); each edge gathers its source node's row
  of h and scales it by the edge's weight; the scaled rows are summed into their destination nodes, starting from zero; and
  node n's sum is scaled by the n-th destination coefficient. The reference's program applies exactly these operations to its
  projected features. The kernel's program applies them to the array its kernel wrote, stored in a narrower float format and
  widened after the gather; over the extended reals a change of format is the identity, so that is the same function of the
  same arrays, whatever the contents of the buffers it starts from.
-/
import proofs.«116690_j52828097741226_2_alg».proof.Proof.Gen.KernelIdeal.Launch
import proofs.«116690_j52828097741226_2_alg».proof.Proof.Gen.ReferenceIdeal
import proofs.«116690_j52828097741226_2_alg».proof.Proof.LibTRef
import Idealize.ShloMosaic.Lib.StableHlo.Run
import Idealize.ShloMosaic.PureOps.Ideal

noncomputable section

namespace Cert.Messages

open Idealize.ShloMosaic Idealize.ShloMosaic.TcCoe Idealize.SL.Sem Idealize.ShloMosaic.StableHlo

section
open Cert.ReferenceIdeal Cert.ReferenceIdeal.Gen

/-- Gather along the edges, scale by the edge weights, sum into the destination nodes, scale by the destination
    coefficients: the operations of the reference's program after its projected features, in its own spelling. -/
def aggregate (h : (⟨S100000x128, .f32⟩ : BufTy).Contents (Elt Ideal)) (src : (⟨S1600000, .i32⟩ : BufTy).Contents (Elt Ideal))
    (ew : (⟨S1600000x1, .f32⟩ : BufTy).Contents (Elt Ideal)) (dst : (⟨S1600000, .i32⟩ : BufTy).Contents (Elt Ideal))
    (cv : (⟨S100000x1, .f32⟩ : BufTy).Contents (Elt Ideal)) : (⟨S100000x128, .f32⟩ : BufTy).Contents (Elt Ideal) :=
  mulf (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (mulf (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 ew))) (broadcastInDim S100000x128 ![0, 1] bcast_S100000x1_S100000x128_0_1 cv)

end

open Cert.KernelIdeal Cert.KernelIdeal.Gen

/-- The kernel program's operations after its kernel, run from any buffer contents W, leave in the result buffer the
    aggregate of what W holds in the kernel's output array and in the four argument arrays they read. -/
theorem kernel_tail (W : Valuation τ sig (Elt Ideal)) :
    StableHlo.after (hostOps1 (F := Ideal)) W (Proc.devRef .tc main_v0)
      = aggregate (W (Proc.devRef .tc main_call0_v1)) (W (Proc.devRef .tc main_arg5)) (W (Proc.devRef .tc main_arg4))
          (W (Proc.devRef .tc main_arg6)) (W (Proc.devRef .tc main_arg3)) := by
  after_results
  simp only [Cert.Lib.TRef.ofBuf_toBuf]
  rfl

end Cert.Messages

end
-- ==== Proof.KernelRun.lean ====
/-
  The kernel program's run: its result is the aggregate of the projected features of its arguments.

  After the kernel its output array holds the projected features, and no operation after the kernel writes that array or an
  argument array; so the operations after the kernel compute the aggregate from the projected features, the source and
  destination indices, the edge weights and the destination coefficients as launched, and leave it in the result buffer. The
  argument arrays end as launched: two are read by the kernel through its windows and never written back, the other five
  are touched by no write at all.
-/
import proofs.«116690_j52828097741226_2_alg».proof.Proof.Gen.KernelIdeal.Frame
import proofs.«116690_j52828097741226_2_alg».proof.Proof.Rows
import proofs.«116690_j52828097741226_2_alg».proof.Proof.Aggregate

noncomputable section

namespace Cert.KernelIdeal.Projection

open Cert.KernelIdeal Cert.KernelIdeal.Gen Idealize.ShloMosaic Idealize.ShloMosaic.TcCoe Idealize.SL.Sem
open Idealize.ShloMosaic.Pipeline (Dat)
open Cert.Projection (hsrc)
open Cert.Messages (aggregate kernel_tail)

variable (m : (ℓ : Loc nD τ sig) → Buf (Elt Ideal) ℓ) (ρ : Dev nD → PrngReg)

/-- Equal arrays have equal aggregates. -/
theorem aggregate_congr {h h' : (⟨Cert.ReferenceIdeal.S100000x128, .f32⟩ : BufTy).Contents (Elt Ideal)}
    {src src' : (⟨Cert.ReferenceIdeal.S1600000, .i32⟩ : BufTy).Contents (Elt Ideal)}
    {ew ew' : (⟨Cert.ReferenceIdeal.S1600000x1, .f32⟩ : BufTy).Contents (Elt Ideal)}
    {dst dst' : (⟨Cert.ReferenceIdeal.S1600000, .i32⟩ : BufTy).Contents (Elt Ideal)}
    {cv cv' : (⟨Cert.ReferenceIdeal.S100000x1, .f32⟩ : BufTy).Contents (Elt Ideal)}
    (e1 : h = h') (e2 : src = src') (e3 : ew = ew') (e4 : dst = dst') (e5 : cv = cv') :
    aggregate h src ew dst cv = aggregate h' src' ew' dst' cv' := by
  subst e1 e2 e3 e4 e5
  rfl

/-- The result buffer after the operations that follow the kernel. -/
theorem result_eq (c : Dev nD) :
    Pipeline.afterTail₀ cfgs (dats m) 0 (V0 m) [hostOps1] c main_v0
      = aggregate (hsrc (m ((c : Thread nD τ).loc main_arg0)) (m ((c : Thread nD τ).loc main_arg1)) (m ((c : Thread nD τ).loc main_arg2)))
          (m ((c : Thread nD τ).loc main_arg5)) (m ((c : Thread nD τ).loc main_arg4)) (m ((c : Thread nD τ).loc main_arg6))
          (m ((c : Thread nD τ).loc main_arg3)) := by
  unfold Pipeline.afterTail₀
  refine (kernel_tail _).trans ?_
  refine aggregate_congr ?_ ?_ ?_ ?_ ?_
  · exact (Pipeline.withArrays_arr spec0 launch0.win.arr_inj c (V0 m c) (fun w => (dats m 0 c).arrAt w cfg0.N) 3).trans (final m c)
  · exact (Pipeline.withArrays_of_ne spec0 c (V0 m c) (fun w => (dats m 0 c).arrAt w cfg0.N) main_arg5
      (by decide : ∀ w, Pipeline.arrRef spec0 w ≠ main_arg5)).trans (V_main_arg5 m c)
  · exact (Pipeline.withArrays_of_ne spec0 c (V0 m c) (fun w => (dats m 0 c).arrAt w cfg0.N) main_arg4
      (by decide : ∀ w, Pipeline.arrRef spec0 w ≠ main_arg4)).trans (V_main_arg4 m c)
  · exact (Pipeline.withArrays_of_ne spec0 c (V0 m c) (fun w => (dats m 0 c).arrAt w cfg0.N) main_arg6
      (by decide : ∀ w, Pipeline.arrRef spec0 w ≠ main_arg6)).trans (V_main_arg6 m c)
  · exact (Pipeline.withArrays_of_ne spec0 c (V0 m c) (fun w => (dats m 0 c).arrAt w cfg0.N) main_arg3
      (by decide : ∀ w, Pipeline.arrRef spec0 w ≠ main_arg3)).trans (V_main_arg3 m c)

/-- Every weakly fair execution of the kernel program terminates with the aggregate of the projected features in its result
    buffer and its argument arrays as launched. -/
theorem run : θ_run defs (onTc (τ := τ) (main (F := Ideal))) ⟨m, fun _ => 0, ρ⟩ fun r => ∀ c : Dev nD,
      r.2.mem ((c.tc : Thread nD τ).loc main_v0)
        = aggregate (hsrc (m ((c : Thread nD τ).loc main_arg0)) (m ((c : Thread nD τ).loc main_arg1)) (m ((c : Thread nD τ).loc main_arg2)))
            (m ((c : Thread nD τ).loc main_arg5)) (m ((c : Thread nD τ).loc main_arg4)) (m ((c : Thread nD τ).loc main_arg6))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v0 (Pipeline.mem_restRefs_of main_v0 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Projection

end
-- ==== Proof.Reference.lean ====
/-
  The reference's projected features are the same function of the argument arrays.

  The reference multiplies the whole feature matrix by the weight matrix on the host and scales the product by the column of
  source coefficients broadcast along the rows. Over the extended reals the host's product at row n and column e is the sum
  over the contracted coordinate f of x(n, f) * w(f, e), and the broadcast column at (n, e) is s(n, 0): the projected
  features, entry by entry. What the reference then does with them is the aggregation the kernel's program applies too.
-/
import proofs.«116690_j52828097741226_2_alg».proof.Proof.Gen.ReferenceIdeal.Read
import proofs.«116690_j52828097741226_2_alg».proof.Proof.Spec
import proofs.«116690_j52828097741226_2_alg».proof.Proof.Aggregate

open scoped BigOperators

noncomputable section

namespace Cert.ReferenceIdeal.Projection

open Cert.ReferenceIdeal Cert.ReferenceIdeal.Gen Cert.ReferenceIdeal.Read Idealize.ShloMosaic Idealize.ShloMosaic.ValueIdx
open Cert.Projection (hsrc)
open Cert.Messages (aggregate)

/-- The host's product scaled by the broadcast column is the projected features. -/
theorem features_eq (x : (⟨S100000x128, .f32⟩ : BufTy).Contents (Elt Ideal)) (w : (⟨S128x128, .f32⟩ : BufTy).Contents (Elt Ideal))
    (s : (⟨S100000x1, .f32⟩ : BufTy).Contents (Elt Ideal)) :
    val_main_v2 (F := Ideal) x w s = hsrc x w s := by
  funext i
  have el : ∀ k : Fin 128, lidx_main_v0 i k = ix2 (⟨(i 0).val, idx2_lt0 i⟩ : Fin 100000) k := fun k =>
    funext fun a => by match a with | ⟨0, _⟩ => rfl | ⟨1, _⟩ => rfl
  have er : ∀ k : Fin 128, ridx_main_v0 i k = ix2 k (⟨(i 1).val, idx2_lt1 i⟩ : Fin 128) := fun k =>
    funext fun a => by match a with | ⟨0, _⟩ => rfl | ⟨1, _⟩ => rfl
  have ec : idx_main_v1 i = ix2 (⟨(i 0).val, idx2_lt0 i⟩ : Fin 100000) (0 : Fin 1) :=
    funext fun a => by match a with | ⟨0, _⟩ => rfl | ⟨1, _⟩ => rfl
  rw [val_main_v2_apply, val_main_v0_apply, val_main_v1_apply]
  simp only [el, er, ec]
  rfl

/-- The reference's result: the aggregate of the projected features of its arguments. -/
theorem result_eq (x : (⟨S100000x128, .f32⟩ : BufTy).Contents (Elt Ideal)) (w : (⟨S128x128, .f32⟩ : BufTy).Contents (Elt Ideal))
    (s : (⟨S100000x1, .f32⟩ : BufTy).Contents (Elt Ideal)) (src : (⟨S1600000, .i32⟩ : BufTy).Contents (Elt Ideal))
    (ew : (⟨S1600000x1, .f32⟩ : BufTy).Contents (Elt Ideal)) (dst : (⟨S1600000, .i32⟩ : BufTy).Contents (Elt Ideal))
    (cv : (⟨S100000x1, .f32⟩ : BufTy).Contents (Elt Ideal)) :
    aggregate (val_main_v2 (F := Ideal) x w s) src ew dst cv = aggregate (hsrc x w s) src ew dst cv :=
  congrArg (fun h => aggregate h src ew dst cv) (features_eq x w s)

end Cert.ReferenceIdeal.Projection

end
-- ==== Proof.lean ====
/-
  Two programs for one message-passing layer of a graph network compute the same array over the extended reals.

  Both project the node features, h = (x w) scaled row by row by the source coefficients; gather h along the edges by source
  node, scale by the edge weight, sum into the destination nodes, and scale by the destination coefficients. The kernel
  program computes h in a kernel, twenty blocks of 5000 rows, with its matrix product accumulated from zero and its operands
  and result stored in a narrower float format; the reference computes h by one product on the host. Over the extended
  reals a change of format is the identity and both products are the same sum over the contracted coordinate, so the two
  arrays h agree entry by entry with no condition on the inputs; what follows h is the same function in both programs, and is
  carried as one function and never opened. The idealized kernel program is the kernel program's own text, so the second
  conjunct has nothing to state; the three frames are the two kernel programs' runs with everything but the arguments
  dropped, and the reference's run with its result dropped.
-/
import proofs.«116690_j52828097741226_2_alg».proof.Defs
import proofs.«116690_j52828097741226_2_alg».proof.Proof.Gen.Kernel
import proofs.«116690_j52828097741226_2_alg».proof.Proof.Gen.Kernel.Skeleton
import proofs.«116690_j52828097741226_2_alg».proof.Proof.Gen.Kernel.Launch
import proofs.«116690_j52828097741226_2_alg».proof.Proof.Gen.Kernel.Points
import proofs.«116690_j52828097741226_2_alg».proof.Proof.Gen.Kernel.Frame
import proofs.«116690_j52828097741226_2_alg».proof.Proof.Gen.KernelIdeal
import proofs.«116690_j52828097741226_2_alg».proof.Proof.Gen.KernelIdeal.Skeleton
import proofs.«116690_j52828097741226_2_alg».proof.Proof.Gen.KernelIdeal.Launch
import proofs.«116690_j52828097741226_2_alg».proof.Proof.Gen.KernelIdeal.Points
import proofs.«116690_j52828097741226_2_alg».proof.Proof.Gen.KernelIdeal.Frame
import proofs.«116690_j52828097741226_2_alg».proof.Proof.Gen.ReferenceIdeal
import proofs.«116690_j52828097741226_2_alg».proof.Proof.Gen.ReferenceIdeal.Run
import proofs.«116690_j52828097741226_2_alg».proof.Proof.Gen.ReferenceIdeal.Read
import proofs.«116690_j52828097741226_2_alg».proof.Proof.Gen.Pre_finite_inputs
import proofs.«116690_j52828097741226_2_alg».proof.Proof.KernelRun
import proofs.«116690_j52828097741226_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program rewrites no operation of the kernel program. -/
theorem preserves : Cert.preserves_Kernel_KernelIdeal := trivial

/-- From memories that agree on the arguments both programs end with the aggregate of the projected features of those
    arguments: the kernel program by its run, the reference by its run and the reading of its host product. -/
theorem algebraic : Cert.algebraic_KernelIdeal_ReferenceIdeal := by
  intro m ρ m' ρ' _ hagree
  refine ⟨_, Cert.KernelIdeal.Projection.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.Projection.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
